-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x20 : Shape := ⟨2, ![4096, 20]⟩
abbrev S4096x20x1000 : Shape := ⟨3, ![4096, 20, 1000]⟩
abbrev S128x20 : Shape := ⟨2, ![128, 20]⟩
abbrev S128x20x1000 : Shape := ⟨3, ![128, 20, 1000]⟩
abbrev S128x20x1 : Shape := ⟨3, ![128, 20, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x20, .i32⟩
  | .hbm, ⟨1, _⟩ => ⟨S4096x20x1000, .f32⟩
  | .local _ .vmem, ⟨0, _⟩ => ⟨S128x20, .i32⟩
  | .local _ .vmem, ⟨1, _⟩ => ⟨S128x20, .i32⟩
  | .local _ .vmem, ⟨2, _⟩ => ⟨S128x20x1000, .f32⟩
  | .local _ .vmem, ⟨3, _⟩ => ⟨S128x20x1000, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x20x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x20_S128x20_0_0 : ∀ a, (![0, 0] : Fin 2 → Nat) a + S128x20.size a ≤ S128x20.size a
  h_S128x20 : 0 < S128x20.numel
  iota_S128x20x1000_d2_w32 : S128x20x1000.Iotas .tc 32 [2]
  shapeCasts_S128x20_S128x20x1 : S128x20.ShapeCasts S128x20x1
  broadcasts_S128x20x1_S128x20x1000 : S128x20x1.Broadcasts S128x20x1000
  natLt_1_32 : 1 < 32
  inb_S128x20x1000_S128x20x1000_0_0_0 : ∀ a, (![0, 0, 0] : Fin 3 → Nat) a + S128x20x1000.size a ≤ S128x20x1000.size a
  h_S128x20x1000 : 0 < S128x20x1000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20.size a ≤ S4096x20.size a
  hwx0_0 : ∀ i : grid0.Coords, EltTy.bits .i32 = 32 ∨ (Rect.block (s := S4096x20) S128x20.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x20x1000.size a ≤ S4096x20x1000.size a
  hwx0_1 : ∀ i : grid0.Coords, EltTy.bits .f32 = 32 ∨ (Rect.block (s := S4096x20x1000) S128x20x1000.size (cc0_transform_1 i) (hinb0_1 i)).WholeWords (EltTy.packing .f32)

variable [Facts₀]

abbrev win0_0 : Pipeline.Window sig grid0 :=
  Pipeline.Window.ofSpec (Memref.whole main_arg0) S128x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x20x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x20 : Shape := ⟨2, ![4096, 20]⟩
abbrev S4096x20x1 : Shape := ⟨3, ![4096, 20, 1]⟩
abbrev S1x1x1000 : Shape := ⟨3, ![1, 1, 1000]⟩
abbrev S4096x20x1000 : Shape := ⟨3, ![4096, 20, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S4096x20x1, .i32⟩
  | .hbm, ⟨2, _⟩ => ⟨S1x1x1000, .i32⟩
  | .hbm, ⟨3, _⟩ => ⟨S4096x20x1000, .i32⟩
  | .hbm, ⟨4, _⟩ => ⟨S4096x20x1000, .i32⟩
  | .hbm, ⟨5, _⟩ => ⟨S4096x20x1000, .i1⟩
  | .hbm, ⟨6, _⟩ => ⟨S4096x20x1000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x20_S4096x20x1_0_1 : S4096x20.BroadcastsInDim S4096x20x1 (![0, 1] : Fin 2 → Fin S4096x20x1.rank)
  bcast_S4096x20x1_S4096x20x1000_0_1_2 : S4096x20x1.BroadcastsInDim S4096x20x1000 (![0, 1, 2] : Fin 3 → Fin S4096x20x1000.rank)
  bcast_S1x1x1000_S4096x20x1000_0_1_2 : S1x1x1000.BroadcastsInDim S4096x20x1000 (![0, 1, 2] : Fin 3 → Fin S4096x20x1000.rank)

variable [Facts₀]

class Facts : Prop extends Facts₀ where

variable [Facts]
-- ==== Proof.OneHot.lean ====
/-
  The one-hot function, and the two scalar facts that make both programs compute it.

  For an array `x` of 32-bit words indexed by (b, l) with b < 4096 and l < 20, the one-hot expansion over 1000
  classes is the array indexed by (b, l, k), k < 1000, whose entry is 1 when the word `x (b, l)` IS the word of
  the number k, and 0 otherwise. Only equality of words is used: a word outside [0, 1000) equals the word of no
  k < 1000, so its row is all zeros, on both sides alike.

  Both programs obtain the entry from a one-bit comparison result: one reads the bit as an unsigned number, the
  other widens the bit to 32 bits by zero extension and reads that word as a signed number, having compared the two
  words in the other order. A bit is 0 or 1, the widened word is then 0 or 1 as well and its sign bit is clear, so
  both readings give the number 0 or 1; and equality of two words does not depend on the order they are given in.
-/
import Idealize.ShloMosaic.PureOps.Ideal
import Idealize.ShloMosaic.Lib.ValueIdx

noncomputable section

namespace Cert.OneHot

open Idealize.ShloMosaic Idealize.ShloMosaic.ValueIdx

/-- The indicator of equality of two 32-bit words, as an extended real: 1 when they are equal, else 0. -/
def ind (a b : BitVec 32) : EReal := if a = b then 1 else 0

/-- The one-hot expansion of `x` over 1000 classes: entry (b, l, k) is the indicator that the word `x (b, l)` is
    the word of k. -/
def oneHot (x : (⟨2, ![4096, 20]⟩ : Shape).Idx → BitVec 32) : (⟨3, ![4096, 20, 1000]⟩ : Shape).Idx → EReal :=
  fun i => ind (x (ix2 (i 0) (i 1))) (BitVec.ofNat 32 (i 2).val)

/-- The bit "a equals b", read as an unsigned number, is the indicator. -/
theorem uitofp_cmpi_eq (a b : BitVec 32) :
    FloatOps.uitofp (F := Ideal) .f32 (IntOp.cmpi .eq a b) = ind a b := by
  show (((BitVec.ofBool (a == b)).toNat : ℝ) : EReal) = ind a b
  unfold ind
  by_cases h : a = b
  · rw [if_pos h, beq_iff_eq.mpr h]
    show (((1 : ℕ) : ℝ) : EReal) = 1
    rw [Nat.cast_one, EReal.coe_one]
  · rw [if_neg h, beq_eq_false_iff_ne.mpr h]
    show (((0 : ℕ) : ℝ) : EReal) = 0
    rw [Nat.cast_zero, EReal.coe_zero]

/-- The bit "b equals a", zero-extended to 32 bits and read as a signed number, is the indicator of "a equals b":
    the widened word is 0 or 1, whose signed reading is itself, and equality is symmetric. -/
theorem sitofp_zext_cmpi_eq (a b : BitVec 32) :
    FloatOps.sitofp (F := Ideal) .f32 ((IntOp.cmpi .eq b a).setWidth 32) = ind a b := by
  show ((((BitVec.ofBool (b == a)).setWidth 32).toInt : ℝ) : EReal) = ind a b
  unfold ind
  by_cases h : a = b
  · rw [if_pos h, beq_iff_eq.mpr h.symm]
    show (((1 : ℤ) : ℝ) : EReal) = 1
    rw [Int.cast_one, EReal.coe_one]
  · rw [if_neg h, beq_eq_false_iff_ne.mpr (Ne.symm h)]
    show (((0 : ℤ) : ℝ) : EReal) = 0
    rw [Int.cast_zero, EReal.coe_zero]

end Cert.OneHot

end
-- ==== Proof.RefValue.lean ====
/-
  The reference computes the one-hot function.

  The reference program widens `x` to shape [4096, 20, 1] and then to [4096, 20, 1000] by repeating each word along
  the last axis, builds the numbers 0 … 999 along the last axis of a [1, 1, 1000] array and repeats them over the first
  two axes, compares the two arrays for equality element by element, and reads each resulting bit as an unsigned number.
  At the index (b, l, k) the first array holds `x (b, l)`, the second the word of k, so the entry is the indicator
  that `x (b, l)` is the word of k.
-/
import proofs.«134761_g16260746183207_cont_sun_c4_425_6_alg».proof.Proof.Gen.ReferenceIdeal.Read
import proofs.«134761_g16260746183207_cont_sun_c4_425_6_alg».proof.Proof.OneHot

noncomputable section

namespace Cert.ReferenceIdeal.RefValue

open Cert.ReferenceIdeal Cert.ReferenceIdeal.Gen Cert.ReferenceIdeal.Read
open Idealize.ShloMosaic Idealize.ShloMosaic.ValueIdx

/-- Reading the widened `x` at (b, l, k) goes through (b, l, 0) back to (b, l). -/
theorem idx_x (i : S4096x20x1000.Idx) : idx_main_call0_v0 (idx_main_call0_v2 i) = ix2 (i 0) (i 1) :=
  funext fun a => by match a with | ⟨0, _⟩ => rfl | ⟨1, _⟩ => rfl

/-- The reference's result, as a function of the argument array, is the one-hot expansion. -/
theorem ref_eq (x0 : S4096x20.Idx → BitVec 32) : val_main_v0 (F := Ideal) x0 = Cert.OneHot.oneHot x0 := by
  funext i
  rw [val_main_v0_apply, val_main_call0_v4_apply, val_main_call0_v2_apply, val_main_call0_v0_apply,
    val_main_call0_v3_apply, val_main_call0_v1_apply, Cert.OneHot.uitofp_cmpi_eq, idx_x]
  rfl

end Cert.ReferenceIdeal.RefValue

end
-- ==== Proof.KernelBlock.lean ====
/-
  What the kernel body computes from one block of `x`.

  At a grid point the body loads a [128, 20] block `x0` of words, builds the numbers 0 … 999 along the last axis of
  a [128, 20, 1000] array, views `x0` as [128, 20, 1] and repeats each word 1000 times along the last axis, compares
  the two arrays for equality element by element (the numbers first, the words second), widens each resulting bit to 32
  bits by zero extension and reads it as a signed number. At the index (p, q, k) of the block the numbers' array holds
  the word of k and the repeated array holds `x0 (p, q)`, so the entry is the indicator that `x0 (p, q)` is the word
  of k.
-/
import proofs.«134761_g16260746183207_cont_sun_c4_425_6_alg».proof.Proof.Gen.KernelIdeal.Skeleton
import proofs.«134761_g16260746183207_cont_sun_c4_425_6_alg».proof.Proof.OneHot
import Idealize.ShloMosaic.Lib.Pipeline.Value

noncomputable section

namespace Cert.KernelIdeal.Block

open Cert.KernelIdeal Cert.KernelIdeal.Gen
open Idealize.ShloMosaic Idealize.ShloMosaic.ValueIdx

/-- The numbers along the last axis: at (p, q, k) the word of k. -/
theorem iota_at (h : S128x20x1000.Iotas .tc 32 [2]) (p : Fin 128) (q : Fin 20) (k : Fin 1000) :
    iota .tc S128x20x1000 32 [2] h (ix3 p q k) = BitVec.ofNat 32 k.val := by
  show BitVec.ofNat 32 (0 * 1000 + k.val) = BitVec.ofNat 32 k.val
  rw [Nat.zero_mul, Nat.zero_add]

/-- A [128, 20] array viewed as [128, 20, 1] reads, at (p, q, u), the operand at (p, q). -/
theorem cast_at {α : Type} (x : S128x20.Idx → α) (h : S128x20.ShapeCasts S128x20x1) (p : Fin 128) (q : Fin 20) (u : Fin 1) :
    shapeCast S128x20x1 x h (ix3 p q u) = x (ix2 p q) :=
  shapeCast_apply x h _ _ (by
    have hu : u.val = 0 := by omega
    rw [Shape.rowMajor_val_two, Shape.rowMajor_val_three]
    show p.val * 20 + q.val = (p.val * 20 + q.val) * 1 + u.val
    rw [hu, Nat.mul_one, Nat.add_zero])

/-- A [128, 20, 1] array repeated along the last axis to [128, 20, 1000] reads, at (p, q, k), the operand at (p, q, 0). -/
theorem repeat_at {α : Type} (v : S128x20x1.Idx → α) (h : S128x20x1.Broadcasts S128x20x1000) (p : Fin 128) (q : Fin 20) (k : Fin 1000) :
    broadcastTo S128x20x1000 v h (ix3 p q k) = v (ix3 p q (0 : Fin 1)) := by
  refine broadcastTo_apply v h (ix3 p q k) (ix3 p q (0 : Fin 1)) fun ax => ?_
  match ax with
  | ⟨0, _⟩ => rfl
  | ⟨1, _⟩ => rfl
  | ⟨2, _⟩ => rfl

/-- The body's stored value at (p, q, k) is the indicator that `x0 (p, q)` is the word of k. -/
theorem pay_at (x0 : Vec Ideal S128x20 .i32) (p : Fin 128) (q : Fin 20) (k : Fin 1000) :
    k0_pay1 (F := Ideal) x0 (ix3 p q k) = Cert.OneHot.ind (x0 (ix2 p q)) (BitVec.ofNat 32 k.val) := by
  unfold k0_pay1
  show FloatOps.sitofp (F := Ideal) .f32 ((IntOp.cmpi .eq (iota .tc S128x20x1000 32 [2] _ (ix3 p q k))
    (broadcastTo S128x20x1000 (shapeCast S128x20x1 x0 _) _ (ix3 p q k))).setWidth 32) = _
  rw [iota_at, repeat_at, cast_at]
  exact Cert.OneHot.sitofp_zext_cmpi_eq _ _

end Cert.KernelIdeal.Block

end
-- ==== Proof.KernelArray.lean ====
/-
  From the blocks to the whole array: the kernel computes the one-hot function.

  The launch has 32 grid points. Point t stages rows 128·t … 128·t + 127 of `x` (all 20 columns) and writes back rows
  128·t … 128·t + 127 of the result (all 20 columns, all 1000 classes). By the block computation the entry of the written
  block at (p, q, k) is the indicator that the staged block's word at (p, q) is the word of k; the staged word at (p, q)
  is `x (128·t + p, q)`, and the written entry lands at (128·t + p, q, k): so what point t writes back is the block of
  the one-hot expansion of `x` at that place. Row r of the result lies in the block of point r / 128, so the 32 blocks
  cover the array, and the array ends as the one-hot expansion of `x`.
-/
import proofs.«134761_g16260746183207_cont_sun_c4_425_6_alg».proof.Proof.Gen.KernelIdeal.Value
import proofs.«134761_g16260746183207_cont_sun_c4_425_6_alg».proof.Proof.KernelBlock

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block index maps over the 32 grid points: point t takes block t along the rows of both arrays, and the one
    block there is along every other axis. -/
theorem block_index : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- The body's stored value at any index of the block. -/
theorem pay_idx (x0 : Vec Ideal S128x20 .i32) (j : S128x20x1000.Idx) :
    k0_pay1 (F := Ideal) x0 j = Cert.OneHot.ind (x0 (ix2 (j 0) (j 1))) (BitVec.ofNat 32 (j 2).val) := by
  obtain ⟨p, q, k, rfl⟩ : ∃ (p : Fin 128) (q : Fin 20) (k : Fin 1000), j = ix3 p q k := ⟨j 0, j 1, j 2, eq_ix3 j⟩
  exact Block.pay_at x0 p q k

/-- What point t writes back is block t of the one-hot expansion of `x` as the launch finds it. -/
theorem flushed_eq (c : Dev nD) (t : Fin cfg0.N) :
    (dats m 0 c).flushed 1 t = ((cfg0.win 1).blk t).view.read (Elt Ideal) (Cert.OneHot.oneHot (V m c main_arg0)) := by
  rw [flushed1]
  unfold out0_1
  rw [View.canon_unit_zero zeros3]
  simp only [View.ld_unit_zero (S := S128x20) zeros2]
  obtain ⟨e0, e1, e2, e3, e4⟩ := block_index t
  funext j
  show k0_pay1 (F := Ideal) (iblk m c 0 t) j = Cert.OneHot.oneHot (V m c main_arg0) (((cfg0.win 1).blk t).view.emb j)
  refine (pay_idx (iblk m c 0 t) j).trans ?_
  have hx : ((cfg0.win 0).blk t).view.emb (ix2 (j 0) (j 1))
      = ix2 ((((cfg0.win 1).blk t).view.emb j) 0) ((((cfg0.win 1).blk t).view.emb j) 1) := by
    funext a; apply Fin.ext
    match a with
    | ⟨0, _⟩ => show win0_0.index t (0 : Fin 2) * 128 + 1 * (j 0).val = win0_1.index t (0 : Fin 3) * 128 + 1 * (j 0).val; omega
    | ⟨1, _⟩ => show win0_0.index t (1 : Fin 2) * 20 + 1 * (j 1).val = win0_1.index t (1 : Fin 3) * 20 + 1 * (j 1).val; omega
  have hk : ((((cfg0.win 1).blk t).view.emb j) 2).val = (j 2).val := by
    show win0_1.index t (2 : Fin 3) * 1000 + 1 * (j 2).val = (j 2).val; omega
  show Cert.OneHot.ind (V m c main_arg0 (((cfg0.win 0).blk t).view.emb (ix2 (j 0) (j 1)))) (BitVec.ofNat 32 (j 2).val)
    = Cert.OneHot.ind (V m c main_arg0 (ix2 ((((cfg0.win 1).blk t).view.emb j) 0) ((((cfg0.win 1).blk t).view.emb j) 1)))
        (BitVec.ofNat 32 ((((cfg0.win 1).blk t).view.emb j) 2).val)
  rw [hx, hk]
  rfl

/-- An index of the result is in point t's block iff each coordinate is in the block's range on its axis. -/
theorem mem_blk (t : Fin cfg0.N) (i : S4096x20x1000.Idx) :
    i ∈ ((cfg0.win 1).blk t).view.set ↔ ∀ a : Fin 3, win0_1.index t a * S128x20x1000.size a ≤ (i a).val
      ∧ (i a).val < win0_1.index t a * S128x20x1000.size a + S128x20x1000.size a := by
  show i ∈ ((View.whole main_v0).slice (win0_1.rect t)).set ↔ _
  rw [View.set_slice_whole, Rect.mem_set_unit]
  exact Iff.rfl

/-- Every index of the result is in some point's block: row r is in the block of point r / 128. -/
theorem cover (i : S4096x20x1000.Idx) :
    ∃ t : Fin cfg0.N, (cfg0.win 1).flush t = true ∧ i ∈ ((cfg0.win 1).blk t).view.set := by
  have hi0 : (i 0).val < 4096 := (i 0).isLt
  have hi1 : (i 1).val < 20 := (i 1).isLt
  have hi2 : (i 2).val < 1000 := (i 2).isLt
  obtain ⟨t, ht⟩ : ∃ t : Fin cfg0.N, t.val = (i 0).val / 128 :=
    ⟨⟨(i 0).val / 128, by rw [show cfg0.N = 32 from N_0]; omega⟩, rfl⟩
  obtain ⟨e0, e1, e2, e3, e4⟩ := block_index t
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 20 ≤ (i 1).val ∧ (i 1).val < win0_1.index t (1 : Fin 3) * 20 + 20; omega
  | ⟨2, _⟩ => show win0_1.index t (2 : Fin 3) * 1000 ≤ (i 2).val ∧ (i 2).val < win0_1.index t (2 : Fin 3) * 1000 + 1000; omega

/-- The result array after the run is the one-hot expansion of the argument array. -/
theorem final (c : Dev nD) :
    (dats m 0 c).arrAt 1 cfg0.N = Cert.OneHot.oneHot (m ((c : Thread nD τ).loc main_arg0)) :=
  (dats m 0 c).arrAt_eq_of_cover 1 (Cert.OneHot.oneHot (V m c main_arg0)) (fun t _ => flushed_eq m c t) cover

/-- Every weakly fair execution of the kernel's program terminates with the result array at the one-hot expansion of
    the argument array, and the argument array unchanged. -/
theorem run : θ_run defs (onTc (τ := τ) (main (F := Ideal))) ⟨m, fun _ => 0, ρ⟩ fun r => ∀ c : Dev nD,
      r.2.mem ((c : Thread nD τ).loc main_v0) = Cert.OneHot.oneHot (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  The kernel and its reference compute the same array: the one-hot expansion of `x` over 1000 classes.

  `x` is a [4096, 20] array of 32-bit words. Both programs return the [4096, 20, 1000] array whose entry at (b, l, k)
  is 1 when the word `x (b, l)` is the word of the number k, and 0 otherwise (Proof/OneHot.lean). The reference compares
  `x`, repeated along a new last axis, with the numbers 0 … 999 and reads each bit as an unsigned number
  (Proof/RefValue.lean). The kernel does the same on blocks of 128 rows, one per grid point, comparing in the other
  order, widening each bit to a 32-bit word and reading that word as a signed number (Proof/KernelBlock.lean); its 32
  blocks tile the result (Proof/KernelArray.lean). No float enters either program before the last conversion, and that
  conversion yields 0 or 1 exactly, so nothing is asked of the input: the programs agree for every array of words.

  The three frame claims: each kernel program's is its generated frame; the reference has no kernel, and its frame is its
  generated run with the result forgotten. The kernel read over the extended reals is the kernel's own text (no
  operation was rewritten), so the fourth claim asks nothing.
-/
import proofs.«134761_g16260746183207_cont_sun_c4_425_6_alg».proof.Defs
import proofs.«134761_g16260746183207_cont_sun_c4_425_6_alg».proof.Proof.Gen.Kernel.Frame
import proofs.«134761_g16260746183207_cont_sun_c4_425_6_alg».proof.Proof.Gen.KernelIdeal.Frame
import proofs.«134761_g16260746183207_cont_sun_c4_425_6_alg».proof.Proof.Gen.ReferenceIdeal.Run
import proofs.«134761_g16260746183207_cont_sun_c4_425_6_alg».proof.Proof.RefValue
import proofs.«134761_g16260746183207_cont_sun_c4_425_6_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on `x`, both programs end with the result array at the one-hot expansion of `x`. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, hagree c]

theorem claim : Cert.Claim :=
  ⟨Cert.Kernel.Gen.facts, Cert.KernelIdeal.Gen.facts, Cert.ReferenceIdeal.Gen.facts,
    frame_kernel, frame_kernel_ideal, frame_reference_ideal, trivial, algebraic⟩

end Cert.Proof

end
